-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1024x1024 : Shape := ⟨2, ![1024, 1024]⟩
abbrev S_ : Shape := ⟨0, ![]⟩
abbrev S1x4096 : Shape := ⟨2, ![1, 4096]⟩
abbrev S2048x512 : Shape := ⟨2, ![2048, 512]⟩
abbrev S1x2048 : Shape := ⟨2, ![1, 2048]⟩
abbrev S2048x2048 : Shape := ⟨2, ![2048, 2048]⟩

abbrev nBuf : Space → Nat
  | .hbm => 17
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S8192x4096, .bf16⟩
  | .hbm, ⟨8, _⟩ => ⟨S4096x4096, .bf16⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1x2048, .f32⟩
  | .local _ .vmem, ⟨13, _⟩ => ⟨S1x2048, .f32⟩
  | .local _ .vmem, ⟨14, _⟩ => ⟨S2048x2048, .f32⟩
  | .local _ .vmem, ⟨15, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  bcast_S_S4096 : S_.BroadcastsInDim S4096 (![] : Fin 0 → Fin S4096.rank)
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .bf16 = 32 ∨ (Rect.block (s := S8192x4096) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S8192x4096.size a
  hwx1_3 : ∀ i : grid1.Coords, EltTy.bits .f32 = 32 ∨ (Rect.block (s := S8192x4096) S2048x2048.size (cc1_transform_3 i) (hinb1_3 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, on the extended reals, index by index.

  A linear layer whose weight and bias are sampled by reparameterization: from a mean `mu`, a log-variance `lv` and a
  noise `eps` of one shape, the sample is `mu + eps * exp (lv / 2)` entry by entry (the half is the float literal
  `0x3F000000`, the same word in both programs, so it is never evaluated). With `W` the sampled weight, of shape
  [out, in], and `b` the sampled bias, of shape [out], the layer sends a batch `x` of shape [batch, in] to
  `out[r, o] = (sum over i of x[r, i] * W[o, i]) + b[o]`: each output row contracted with a weight ROW (the weight is
  used transposed), then the bias added once.
-/
import Idealize.ShloMosaic.PureOps.Ideal
import Idealize.ShloMosaic.Lib.ValueIdx

noncomputable section

namespace Cert.Spec

open Idealize.ShloMosaic Idealize.ShloMosaic.ValueIdx

/-- The batch: 8192 rows of 4096 input features. -/
abbrev SX : Shape := ⟨2, ![8192, 4096]⟩
/-- The weight family: 4096 output features by 4096 input features. -/
abbrev SW : Shape := ⟨2, ![4096, 4096]⟩
/-- The bias family: 4096 output features. -/
abbrev SB : Shape := ⟨1, ![4096]⟩

/-- One half, as the float literal both programs carry. -/
abbrev half : EReal := Ideal.ofBits .f32 0x3F000000#32

/-- A reparameterized sample at one entry: `mu + eps * exp (lv / 2)`. -/
def sample (mu lv eps : EReal) : EReal := mu + eps * Ideal.exp (half * lv)

/-- The sampled weight, entry by entry. -/
def weight (mu lv eps : SW.Idx → EReal) (j : SW.Idx) : EReal := sample (mu j) (lv j) (eps j)

/-- The sampled bias, entry by entry. -/
def bias (mu lv eps : SB.Idx → EReal) (j : SB.Idx) : EReal := sample (mu j) (lv j) (eps j)

/-- The layer's output: row `i 0` of `x` contracted with row `i 1` of the sampled weight, plus entry `i 1` of the
    sampled bias. The arguments are in the programs' argument order. -/
def out (x : SX.Idx → EReal) (wmu wlv : SW.Idx → EReal) (bmu blv : SB.Idx → EReal) (weps : SW.Idx → EReal)
    (beps : SB.Idx → EReal) (i : SX.Idx) : EReal :=
  (∑ k : Fin 4096, x (ix2 (i 0) k) * weight wmu wlv weps (ix2 (i 1) k)) + bias bmu blv beps (ix1 (i 1))

end Cert.Spec

end
-- ==== Proof.RefIsSpec.lean ====
/-
  The reference program, read at one output index, is the layer formula.

  Its stages: the splat constant one half times the log-variance, exponentiated, times the noise, plus the mean is the
  reparameterized sample `mu + eps * exp (lv / 2)`, once over the weight family (shape [out, in]) and once over the bias
  family (shape [out]). The contraction reads, at output index `(r, o)`, the batch at `(r, k)` and the sampled weight at
  `(o, k)` and sums over `k`: a row of the batch against a ROW of the weight. The two broadcasts carry the sampled bias
  from `[out]` through `[1, out]` to `[batch, out]`, so at `(r, o)` they read it at `o`; the last stage adds the two.
-/
import proofs.«135417_j20151986553504_2_alg».proof.Proof.Gen.ReferenceIdeal.Read
import proofs.«135417_j20151986553504_2_alg».proof.Proof.Spec

noncomputable section

namespace Cert.ReferenceIdeal.RefValue

open Cert.ReferenceIdeal Cert.ReferenceIdeal.Read Idealize.ShloMosaic Idealize.ShloMosaic.ValueIdx

/-- The contraction's left operand is read at row `i 0`, column `k`. -/
theorem lidx_eq (i : S8192x4096.Idx) (k : Fin 4096) : lidx_main_v10 i k = ix2 (n0 := 8192) (n1 := 4096) (i 0) k :=
  funext fun a => Fin.ext (by match a with | ⟨0, _⟩ => rfl | ⟨1, _⟩ => rfl)

/-- The contraction's right operand is read at row `i 1`, column `k`: the weight is used transposed. -/
theorem ridx_eq (i : S8192x4096.Idx) (k : Fin 4096) : ridx_main_v10 i k = ix2 (n0 := 4096) (n1 := 4096) (i 1) k :=
  funext fun a => Fin.ext (by match a with | ⟨0, _⟩ => rfl | ⟨1, _⟩ => rfl)

/-- Through the two broadcasts the bias is read at `i 1`. -/
theorem bidx_eq (i : S8192x4096.Idx) : idx_main_v11 (idx_main_v12 i) = ix1 (n := 4096) (i 1) :=
  funext fun a => Fin.ext (by match a with | ⟨0, _⟩ => rfl)

/-- The sampled weight stage at an index is the specification's sampled weight. -/
theorem weight_eq (x1 x2 x5 : (⟨S4096x4096, .f32⟩ : BufTy).Contents (Elt Ideal)) (j : S4096x4096.Idx) :
    val_main_v4 (F := Ideal) x1 x2 x5 j = Cert.Spec.weight x1 x2 x5 j := by
  rw [val_main_v4_apply, val_main_v3_apply, val_main_v2_apply, val_main_v1_apply, val_main_v0_apply,
    val_main_cst_apply]
  rfl

/-- The sampled bias stage at an index is the specification's sampled bias. -/
theorem bias_eq (x3 x4 x6 : (⟨S4096, .f32⟩ : BufTy).Contents (Elt Ideal)) (j : S4096.Idx) :
    val_main_v9 (F := Ideal) x3 x4 x6 j = Cert.Spec.bias x3 x4 x6 j := by
  rw [val_main_v9_apply, val_main_v8_apply, val_main_v7_apply, val_main_v6_apply, val_main_v5_apply,
    val_main_cst_0_apply]
  rfl

/-- The reference program's result is the specification. -/
theorem ref_eq_spec (x0 : (⟨Cert.ReferenceIdeal.S8192x4096, .f32⟩ : BufTy).Contents (Elt Ideal))
    (x1 x2 : (⟨Cert.ReferenceIdeal.S4096x4096, .f32⟩ : BufTy).Contents (Elt Ideal))
    (x3 x4 : (⟨Cert.ReferenceIdeal.S4096, .f32⟩ : BufTy).Contents (Elt Ideal))
    (x5 : (⟨Cert.ReferenceIdeal.S4096x4096, .f32⟩ : BufTy).Contents (Elt Ideal))
    (x6 : (⟨Cert.ReferenceIdeal.S4096, .f32⟩ : BufTy).Contents (Elt Ideal)) :
    Cert.ReferenceIdeal.Read.val_main_v13 (F := Ideal) x0 x1 x2 x3 x4 x5 x6 = Cert.Spec.out x0 x1 x2 x3 x4 x5 x6 := by
  funext i
  rw [val_main_v13_apply, val_main_v10_apply, val_main_v12_apply, val_main_v11_apply, bidx_eq, bias_eq,
    Ideal.addf_def]
  unfold Cert.Spec.out
  congr 1
  refine Finset.sum_congr rfl fun k _ => ?_
  rw [lidx_eq, ridx_eq, weight_eq]

end Cert.ReferenceIdeal.RefValue

end
-- ==== Proof.R1Cases.lean ====
/-
  The matrix-product region, one grid point at a time. Its grid is (row tile, column tile, contraction step); the
  output block of a (row tile, column tile) pair stays in its buffer through the eight contraction steps. The body
  has three behaviours, selected by the contraction step alone:
    first step        : clear the buffer, then add this step's product of the two input blocks  -> 0 + x0 · x1ᵀ
    a middle step     : add this step's product to what the buffer holds                        -> acc + x0 · x1ᵀ
    last step         : the same, then add the bias row to every row of the block               -> (acc + x0 · x1ᵀ) + b
  Each lemma reads the stores the body's run leaves in the output buffer back as ONE value: every store covers the
  whole block, so the last one decides, and a load that follows a covering store reads that store's value.
  Stated for any float semantics.
-/
import proofs.«135417_j20151986553504_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

/-- The offsets of a whole-block access, however spelt, are zero on both axes. -/
theorem hz : (![0, 0] : Fin 2 → Nat) = fun _ => 0 := funext fun a => by fin_cases a <;> rfl

/-- A middle step of the contraction (neither conditional taken): the body leaves, in the output buffer holding
    `xo`, the one covering store of `xo + x0 · x1ᵀ`. -/
theorem out_B (c : Dev nD) (i : grid1.Coords) (a3 : Memref sig .tc .vmem S2048x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : ¬cond1_0 i) (hc1 : ¬cond1_1 i)
    (x0 : Vec F S2048x512 .bf16) (x1 : Vec F S2048x512 .bf16) (x2 : Vec F S1x2048 .f32) (xo : Vec F S2048x2048 .f32) :
    out1_B_3 c i a3 h3 a4 h4 a5 h5 a6 h6 hc0 hc1 x0 x1 x2 xo = k1_pay2 xo x0 x1 := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero hz]
  simp only [View.readAt_eq_ld, h6.read_unread, h3.read_unread, h4.read_unread,
    View.ld_unit_zero (S := S2048x2048) hz, View.ld_unit_zero (S := S2048x512) hz]

/-- The first step of the contraction: the body clears the output buffer, reads the zeros back and leaves
    `0 + x0 · x1ᵀ`; what the buffer held before is not read. -/
theorem out_A (c : Dev nD) (i : grid1.Coords) (a3 : Memref sig .tc .vmem S2048x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : cond1_0 i) (hc1 : ¬cond1_1 i)
    (x0 : Vec F S2048x512 .bf16) (x1 : Vec F S2048x512 .bf16) (x2 : Vec F S1x2048 .f32) :
    out1_A_3 c i a3 h3 a4 h4 a5 h5 a6 h6 hc0 hc1 x0 x1 x2 = k1_pay2 (k1_pay1 (F := F)) x0 x1 := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x512) hz]

/-- The last step of the contraction: the body adds this step's product to the buffer's contents `xo`, reads the sum
    back, and leaves it with the bias row `x2` added to every row: `(xo + x0 · x1ᵀ) + b`. -/
theorem out_C (c : Dev nD) (i : grid1.Coords) (a3 : Memref sig .tc .vmem S2048x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : ¬cond1_0 i) (hc1 : cond1_1 i)
    (x0 : Vec F S2048x512 .bf16) (x1 : Vec F S2048x512 .bf16) (x2 : Vec F S1x2048 .f32) (xo : Vec F S2048x2048 .f32) :
    out1_C_3 c i a3 h3 a4 h4 a5 h5 a6 h6 hc0 hc1 x0 x1 x2 xo = k1_pay3 (k1_pay2 xo x0 x1) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S2048x2048) hz, View.readCov_unit_zero (S := S2048x2048) _ hz]
  simp only [View.readAt_eq_ld, h6.read_unread, h3.read_unread, h4.read_unread, h5.read_unread,
    View.ld_unit_zero (S := S2048x2048) hz, View.ld_unit_zero (S := S2048x512) hz, View.ld_unit_zero (S := S1x2048) hz]

end Cert.KernelIdeal.Region1

end
-- ==== Proof.R1Payload.lean ====
/-
  The matrix-product region's three stored values, read at one entry of the 2048 x 2048 output block, on the extended
  reals:
    the cleared block is 0 everywhere;
    the accumulating store at (p, q) is  acc[p, q] + sum over the step's 512 contraction indices k of x0[p, k] * x1[q, k]
      (both input blocks are indexed [row, k]: the second operand enters transposed, and the product into a zero
      accumulator is the plain sum);
    the closing store at (p, q) is  v[p, q] + b[0, q]  (the one bias row broadcast down the block's rows).
-/
import proofs.«135417_j20151986553504_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Region1

open Cert.KernelIdeal Cert.KernelIdeal.Gen

open Idealize.ShloMosaic.ValueIdx

/-- The cleared block: the float zero at every entry. -/
theorem pay1_apply (y : S2048x2048.Idx) : k1_pay1 (F := Ideal) y = 0 := by
  show Ideal.ofBits .f32 0x00000000#32 = 0
  exact Ideal.ofBits_zero_f32

/-- The block product's index maps, one coordinate at a time: the left operand's row is the output's row, -/
theorem lhs0 (i : S2048x2048.Idx) (r : dot_S2048x512_S2048x512_S2048x2048_1_1_0_0_n_n.contr.Idx) :
    (dot_S2048x512_S2048x512_S2048x2048_1_1_0_0_n_n.lhsIdx i r 0).val = (i 0).val := by
  unfold DotDims.lhsIdx
  rw [dif_neg (show ¬(0 : Fin S2048x512.rank) ∈ dot_S2048x512_S2048x512_S2048x2048_1_1_0_0_n_n.lhsBatch by decide),
    dif_pos (show (0 : Fin S2048x512.rank) ∈ dot_S2048x512_S2048x512_S2048x2048_1_1_0_0_n_n.lhsNonContracting by decide)]
  rfl
/-- its column the contraction index; -/
theorem lhs1 (i : S2048x2048.Idx) (r : dot_S2048x512_S2048x512_S2048x2048_1_1_0_0_n_n.contr.Idx) :
    (dot_S2048x512_S2048x512_S2048x2048_1_1_0_0_n_n.lhsIdx i r 1).val = (r ⟨0, by decide⟩).val :=
  dot_S2048x512_S2048x512_S2048x2048_1_1_0_0_n_n.lhsIdx_val_of_single rfl i r
/-- the right operand's ROW is the output's column, -/
theorem rhs0 (i : S2048x2048.Idx) (r : dot_S2048x512_S2048x512_S2048x2048_1_1_0_0_n_n.contr.Idx) :
    (dot_S2048x512_S2048x512_S2048x2048_1_1_0_0_n_n.rhsIdx i r 0).val = (i 1).val := by
  unfold DotDims.rhsIdx
  rw [dif_neg (show ¬(0 : Fin S2048x512.rank) ∈ dot_S2048x512_S2048x512_S2048x2048_1_1_0_0_n_n.rhsBatch by decide),
    dif_pos (show (0 : Fin S2048x512.rank) ∈ dot_S2048x512_S2048x512_S2048x2048_1_1_0_0_n_n.rhsNonContracting by decide)]
  rfl
/-- and its column the contraction index too. -/
theorem rhs1 (i : S2048x2048.Idx) (r : dot_S2048x512_S2048x512_S2048x2048_1_1_0_0_n_n.contr.Idx) :
    (dot_S2048x512_S2048x512_S2048x2048_1_1_0_0_n_n.rhsIdx i r 1).val = (r ⟨0, by decide⟩).val :=
  dot_S2048x512_S2048x512_S2048x2048_1_1_0_0_n_n.rhsIdx_val_of_single rfl i r

/-- The left operand of the block product at output entry `(p, q)` and contraction index `k` is entry `(p, k)`. -/
theorem lhs_at (p q : Fin 2048) (k : Fin 512) :
    dot_S2048x512_S2048x512_S2048x2048_1_1_0_0_n_n.lhsIdx (ix2 (n0 := 2048) (n1 := 2048) p q)
      ((contrEquiv1 dot_S2048x512_S2048x512_S2048x2048_1_1_0_0_n_n 512 rfl rfl).symm k) = ix2 (n0 := 2048) (n1 := 512) p k := by
  have hk := contrEquiv1_symm_val dot_S2048x512_S2048x512_S2048x2048_1_1_0_0_n_n 512 rfl rfl k
  refine funext fun a => Fin.ext ?_
  match a with
  | ⟨0, _⟩ => exact lhs0 _ _
  | ⟨1, _⟩ => exact (lhs1 _ _).trans hk

/-- The right operand at the same place is entry `(q, k)`. -/
theorem rhs_at (p q : Fin 2048) (k : Fin 512) :
    dot_S2048x512_S2048x512_S2048x2048_1_1_0_0_n_n.rhsIdx (ix2 (n0 := 2048) (n1 := 2048) p q)
      ((contrEquiv1 dot_S2048x512_S2048x512_S2048x2048_1_1_0_0_n_n 512 rfl rfl).symm k) = ix2 (n0 := 2048) (n1 := 512) q k := by
  have hk := contrEquiv1_symm_val dot_S2048x512_S2048x512_S2048x2048_1_1_0_0_n_n 512 rfl rfl k
  refine funext fun a => Fin.ext ?_
  match a with
  | ⟨0, _⟩ => exact rhs0 _ _
  | ⟨1, _⟩ => exact (rhs1 _ _).trans hk

/-- The accumulating store at entry `(p, q)`: the accumulator there plus the step's 512-term contraction. -/
theorem pay2_apply (xo : Vec Ideal S2048x2048 .f32) (x0 x1 : Vec Ideal S2048x512 .bf16) (p q : Fin 2048) :
    k1_pay2 (F := Ideal) xo x0 x1 (ix2 (n0 := 2048) (n1 := 2048) p q)
      = xo (ix2 (n0 := 2048) (n1 := 2048) p q) + ∑ k : Fin 512, x0 (ix2 (n0 := 2048) (n1 := 512) p k) * x1 (ix2 (n0 := 2048) (n1 := 512) q k) := by
  unfold k1_pay2
  simp only [shapeCast_self]
  refine (addf_apply _ _ _).trans (congrArg (xo (ix2 (n0 := 2048) (n1 := 2048) p q) + ·) ?_)
  simp only [matmul]
  rw [Ideal.matmul_constant_zero_apply,
    ← Equiv.sum_comp (contrEquiv1 dot_S2048x512_S2048x512_S2048x2048_1_1_0_0_n_n 512 rfl rfl).symm]
  exact Finset.sum_congr rfl fun k _ => by rw [lhs_at, rhs_at]

/-- The closing store at entry `(p, q)`: the value there plus the bias row's entry `q`. -/
theorem pay3_apply (v : Vec Ideal S2048x2048 .f32) (x2 : Vec Ideal S1x2048 .f32) (p q : Fin 2048) :
    k1_pay3 (F := Ideal) v x2 (ix2 (n0 := 2048) (n1 := 2048) p q)
      = v (ix2 (n0 := 2048) (n1 := 2048) p q) + x2 (ix2 (n0 := 1) (n1 := 2048) (0 : Fin 1) q) := by
  unfold k1_pay3
  simp only [shapeCast_self]
  refine (addf_apply _ _ _).trans (congrArg (v (ix2 (n0 := 2048) (n1 := 2048) p q) + ·) ?_)
  exact broadcastTo_1b_ab_apply x2 broadcasts_S1x2048_S2048x2048 p q

end Cert.KernelIdeal.Region1

end
-- ==== Proof.R1Blocks.lean ====
/-
  Where the matrix-product region's blocks sit in the arrays it reads, as the region finds them (the contents `V` are a
  parameter: nothing here depends on how those arrays were made).

  The grid's 64 points are numbered n = 16 * (row tile) + 8 * (column tile) + (contraction step): the row tile is
  n / 16, the column tile (n / 8) % 2, the step n % 8. At point n
    the batch block        is rows    2048 * (n / 16) ...,       columns 512 * (n % 8) ...  of the batch array,
    the weight block       is rows    2048 * ((n / 8) % 2) ...,  columns 512 * (n % 8) ...  of the weight array,
    the bias block         is columns 2048 * ((n / 8) % 2) ...   of the one-row bias array,
    the output block       is rows    2048 * (n / 16) ...,       columns 2048 * ((n / 8) % 2) ... of the result.
  The arrays are read through natural-number coordinates (zero outside the array, a value that is never used), so
  that the tile arithmetic is plain arithmetic.
-/
import proofs.«135417_j20151986553504_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Region1

open Cert.KernelIdeal Cert.KernelIdeal.Gen

open Idealize.ShloMosaic.ValueIdx

variable (V : (c : Dev nD) → (b : Ref sig .tc) → Buf (Elt Ideal) ((c : Thread nD τ).loc b))

/-- The batch array as the region finds it, at row `r` and column `u`. -/
def xAt (c : Dev nD) (r u : ℕ) : EReal :=
  if h : r < 8192 ∧ u < 4096 then V c main_v0 (ix2 (n0 := 8192) (n1 := 4096) ⟨r, h.1⟩ ⟨u, h.2⟩) else 0

/-- The sampled weight array as the region finds it, at row `o` (an output feature) and column `u`. -/
def wAt (c : Dev nD) (o u : ℕ) : EReal :=
  if h : o < 4096 ∧ u < 4096 then V c main_v1 (ix2 (n0 := 4096) (n1 := 4096) ⟨o, h.1⟩ ⟨u, h.2⟩) else 0

/-- The sampled bias row as the region finds it, at column `o`. -/
def bAt (c : Dev nD) (o : ℕ) : EReal :=
  if h : o < 4096 then V c main_v7 (ix2 (n0 := 1) (n1 := 4096) (0 : Fin 1) ⟨o, h⟩) else 0

/-- The four windows' block indices as functions of the point's number, decided once over the grid. -/
theorem index_facts : ∀ t : Fin cfg1.N,
    win1_0.index t (0 : Fin 2) = t.val / 16 ∧ win1_0.index t (1 : Fin 2) = t.val % 8
    ∧ win1_1.index t (0 : Fin 2) = (t.val / 8) % 2 ∧ win1_1.index t (1 : Fin 2) = t.val % 8
    ∧ win1_2.index t (0 : Fin 2) = 0 ∧ win1_2.index t (1 : Fin 2) = (t.val / 8) % 2
    ∧ win1_3.index t (0 : Fin 2) = t.val / 16 ∧ win1_3.index t (1 : Fin 2) = (t.val / 8) % 2 :=
  (by decide +kernel : ∀ t : Fin grid1.N, _)

/-- The batch block at point `t`, entry `(p, k)`. -/
theorem iblk_x (c : Dev nD) (t : Fin cfg1.N) (p : Fin 2048) (k : Fin 512) :
    (iblk1 V c 0 t : Vec Ideal S2048x512 .bf16) (ix2 (n0 := 2048) (n1 := 512) p k)
      = xAt V c (t.val / 16 * 2048 + p.val) (t.val % 8 * 512 + k.val) := by
  have hN : t.val < 64 := lt_of_lt_of_eq t.isLt (show cfg1.N = 64 from N_1)
  obtain ⟨e0, e1, -⟩ := index_facts t
  unfold iblk1 xAt
  rw [View.read_apply, dif_pos ⟨by omega, by omega⟩]
  show V c main_v0 _ = V c main_v0 _
  congr 1
  funext a
  apply Fin.ext
  match a with
  | ⟨0, _⟩ => show win1_0.index t (0 : Fin 2) * 2048 + 1 * p.val = t.val / 16 * 2048 + p.val; rw [e0]; omega
  | ⟨1, _⟩ => show win1_0.index t (1 : Fin 2) * 512 + 1 * k.val = t.val % 8 * 512 + k.val; rw [e1]; omega

/-- The weight block at point `t`, entry `(q, k)`. -/
theorem iblk_w (c : Dev nD) (t : Fin cfg1.N) (q : Fin 2048) (k : Fin 512) :
    (iblk1 V c 1 t : Vec Ideal S2048x512 .bf16) (ix2 (n0 := 2048) (n1 := 512) q k)
      = wAt V c (t.val / 8 % 2 * 2048 + q.val) (t.val % 8 * 512 + k.val) := by
  have hN : t.val < 64 := lt_of_lt_of_eq t.isLt (show cfg1.N = 64 from N_1)
  obtain ⟨-, -, e0, e1, -⟩ := index_facts t
  unfold iblk1 wAt
  rw [View.read_apply, dif_pos ⟨by omega, by omega⟩]
  show V c main_v1 _ = V c main_v1 _
  congr 1
  funext a
  apply Fin.ext
  match a with
  | ⟨0, _⟩ => show win1_1.index t (0 : Fin 2) * 2048 + 1 * q.val = t.val / 8 % 2 * 2048 + q.val; rw [e0]; omega
  | ⟨1, _⟩ => show win1_1.index t (1 : Fin 2) * 512 + 1 * k.val = t.val % 8 * 512 + k.val; rw [e1]; omega

/-- The bias block at point `t`, entry `(0, q)`. -/
theorem iblk_b (c : Dev nD) (t : Fin cfg1.N) (q : Fin 2048) :
    (iblk1 V c 2 t : Vec Ideal S1x2048 .f32) (ix2 (n0 := 1) (n1 := 2048) (0 : Fin 1) q)
      = bAt V c (t.val / 8 % 2 * 2048 + q.val) := by
  have hN : t.val < 64 := lt_of_lt_of_eq t.isLt (show cfg1.N = 64 from N_1)
  obtain ⟨-, -, -, -, e0, e1, -⟩ := index_facts t
  unfold iblk1 bAt
  rw [View.read_apply, dif_pos (by omega)]
  show V c main_v7 _ = V c main_v7 _
  congr 1
  funext a
  apply Fin.ext
  match a with
  | ⟨0, _⟩ => show win1_2.index t (0 : Fin 2) * 1 + 1 * 0 = 0; rw [e0]
  | ⟨1, _⟩ => show win1_2.index t (1 : Fin 2) * 2048 + 1 * q.val = t.val / 8 % 2 * 2048 + q.val; rw [e1]; omega

end Cert.KernelIdeal.Region1

end
-- ==== Proof.LibResetSum.lean ====
/-
  Two laws about sums taken in pieces, in any commutative additive monoid (so they hold on the extended reals, with
  their infinities, exactly as on the reals: only associativity and commutativity of addition are used).

  1. Tiling. The sum of the first A * B terms of a sequence is the sum, over A consecutive tiles, of each tile's B terms.

  2. A running total with periodic reset. Walk the steps 0, 1, 2, … keeping a running total that is RESET at every
     step divisible by P (there it becomes that step's term alone) and otherwise grows by the step's term. Then at the
     j-th step of the q-th period the total is the sum of that period's first j + 1 terms; in particular, at a period's
     last step it is the sum of the period's P terms. This is what an accumulator carried along the inner axis of a
     two-axis grid holds when it is cleared at the start of every row of the grid.
-/
import Mathlib.Algebra.BigOperators.Fin

open Finset

namespace Cert.ResetSum

variable {M : Type*} [AddCommMonoid M]

/-- Tiling: the first `A * B` terms, summed tile by tile. -/
theorem sum_range_mul (A B : ℕ) (g : ℕ → M) :
    ∑ n ∈ range (A * B), g n = ∑ a ∈ range A, ∑ b ∈ range B, g (a * B + b) := by
  induction A with
  | zero => rw [Nat.zero_mul, range_zero, sum_empty, sum_empty]
  | succ A ih => rw [Nat.succ_mul, sum_range_add, ih, sum_range_succ]

/-- The running total that is reset at every step divisible by `P`. -/
def resetAcc (P : ℕ) (f : ℕ → M) : ℕ → M
  | 0 => f 0
  | n + 1 => if (n + 1) % P = 0 then f (n + 1) else resetAcc P f n + f (n + 1)

/-- At a step divisible by the period the total is that step's term. -/
theorem resetAcc_of_dvd (P : ℕ) (f : ℕ → M) (n : ℕ) (h : n % P = 0) : resetAcc P f n = f n := by
  cases n with
  | zero => rfl
  | succ n => exact if_pos h

/-- At any other step it grows by that step's term. -/
theorem resetAcc_succ (P : ℕ) (f : ℕ → M) (n : ℕ) (h : ¬(n + 1) % P = 0) :
    resetAcc P f (n + 1) = resetAcc P f n + f (n + 1) := if_neg h

/-- Within a period: at its `j`-th step the total is the sum of the period's first `j + 1` terms. -/
theorem resetAcc_period (P : ℕ) (f : ℕ → M) (q : ℕ) :
    ∀ j, j < P → resetAcc P f (q * P + j) = ∑ k ∈ range (j + 1), f (q * P + k)
  | 0, _ => by
    rw [resetAcc_of_dvd P f _ (by rw [Nat.add_zero, Nat.mul_mod_left]), sum_range_one]
  | j + 1, hj => by
    have hne : ¬(q * P + j + 1) % P = 0 := by
      rw [Nat.add_assoc, Nat.mul_add_mod', Nat.mod_eq_of_lt hj]; exact Nat.succ_ne_zero j
    rw [← Nat.add_assoc, resetAcc_succ P f _ hne, resetAcc_period P f q j (Nat.lt_of_succ_lt hj),
      sum_range_succ _ (j + 1), Nat.add_assoc]

/-- At a period's last step: the sum of the period's `P` terms. -/
theorem resetAcc_last (P : ℕ) (hP : 0 < P) (f : ℕ → M) (q : ℕ) :
    resetAcc P f (q * P + (P - 1)) = ∑ k ∈ range P, f (q * P + k) := by
  rw [resetAcc_period P f q (P - 1) (Nat.sub_lt hP Nat.one_pos), Nat.sub_add_cancel hP]

end Cert.ResetSum
-- ==== Proof.R1Acc.lean ====
/-
  What the matrix-product region's output buffer holds after each grid point, at one entry (p, q) of the block.

  Point n contributes the 512-term product  term n = sum over k < 512 of x[row, 512 * (n % 8) + k] * w[col, 512 * (n % 8) + k]
  with row = 2048 * (n / 16) + p and col = 2048 * ((n / 8) % 2) + q. The buffer is cleared at the points divisible by
  eight and otherwise grows by the point's term, so after point n it holds the running total of the terms since the
  last multiple of eight; at the points that are 7 modulo 8 the bias entry b[col] is added on top, once. The proof is
  an induction on the point's number over the three behaviours of the body; nothing is enumerated. Addition on the
  extended reals is used only through 0 + a = a, a + 0 = a and the monoid laws inside the running total.
-/
import proofs.«135417_j20151986553504_2_alg».proof.Proof.R1Cases
import proofs.«135417_j20151986553504_2_alg».proof.Proof.R1Payload
import proofs.«135417_j20151986553504_2_alg».proof.Proof.R1Blocks
import proofs.«135417_j20151986553504_2_alg».proof.Proof.LibResetSum

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.ResetSum

variable (V : (c : Dev nD) → (b : Ref sig .tc) → Buf (Elt Ideal) ((c : Thread nD τ).loc b))

/-- Point `n`'s contribution at block entry `(p, q)`: its 512-term product of a batch row with a weight row. -/
def term (c : Dev nD) (p q n : ℕ) : EReal :=
  ∑ k ∈ Finset.range 512, xAt V c (n / 16 * 2048 + p) (n % 8 * 512 + k) * wAt V c (n / 8 % 2 * 2048 + q) (n % 8 * 512 + k)

/-- Row `p` of one 2048 x 512 block against row `q` of another: the 512-term product. -/
def dotAt (x0 x1 : S2048x512.Idx → EReal) (p q : Fin 2048) : EReal :=
  ∑ k : Fin 512, x0 (ix2 (n0 := 2048) (n1 := 512) p k) * x1 (ix2 (n0 := 2048) (n1 := 512) q k)

/-- The product of the two input blocks at point `t`, at entry `(p, q)`, is that contribution. -/
theorem prod_eq_term (c : Dev nD) (t : Fin cfg1.N) (p q : Fin 2048) :
    dotAt (iblk1 V c 0 t) (iblk1 V c 1 t) p q = term V c p.val q.val t.val := by
  unfold term dotAt
  rw [Finset.sum_range]
  exact Finset.sum_congr rfl fun k _ => congrArg₂ (· * ·) (iblk_x V c t p k) (iblk_w V c t q k)

/-- The accumulating store at point `t`, at entry `(p, q)`: the accumulator there plus the point's contribution. -/
theorem step_eq (c : Dev nD) (t : Fin cfg1.N) (xo : Vec Ideal S2048x2048 .f32) (p q : Fin 2048) :
    k1_pay2 (F := Ideal) xo (iblk1 V c 0 t) (iblk1 V c 1 t) (ix2 (n0 := 2048) (n1 := 2048) p q)
      = xo (ix2 (n0 := 2048) (n1 := 2048) p q) + term V c p.val q.val t.val :=
  (pay2_apply xo (iblk1 V c 0 t) (iblk1 V c 1 t) p q).trans
    (congrArg (xo (ix2 (n0 := 2048) (n1 := 2048) p q) + ·) (prod_eq_term V c t p q))

/-- The bias entry, added at the last contraction step only. -/
def closing (c : Dev nD) (q n : ℕ) : EReal := if n % 8 = 7 then bAt V c (n / 8 % 2 * 2048 + q) else 0

/-- After point `n` the output buffer holds, at `(p, q)`, the running total of the contributions since the last
    multiple of eight, plus the bias entry when `n` is a last contraction step. -/
theorem outsAt_eq (c : Dev nD) (p q : Fin 2048) : ∀ (n : ℕ) (h : n < cfg1.N),
    outsAt1 V c n h (ix2 (n0 := 2048) (n1 := 2048) p q) = resetAcc 8 (term V c p.val q.val) n + closing V c q.val n
  | 0, h => by
    have hA := outsAt1_A V c ⟨0, h⟩ (Nat.zero_mod 8) (by show ¬0 % 8 = 7; decide)
    rw [out_A] at hA
    rw [show outsAt1 V c 0 h = outsAt1 V c (⟨0, h⟩ : Fin cfg1.N).val (⟨0, h⟩ : Fin cfg1.N).isLt from rfl, hA]
    refine (step_eq V c ⟨0, h⟩ _ p q).trans ?_
    rw [pay1_apply, zero_add]
    unfold closing
    rw [if_neg (by decide), add_zero]
    rfl
  | n + 1, h => by
    have hN : n + 1 < 64 := lt_of_lt_of_eq h (show cfg1.N = 64 from N_1)
    have ih := outsAt_eq c p q n (Nat.lt_of_succ_lt h)
    by_cases h0 : (n + 1) % 8 = 0
    · have h1 : ¬(n + 1) % 8 = 7 := by omega
      have hA := outsAt1_A V c ⟨n + 1, h⟩ h0 h1
      rw [out_A] at hA
      rw [show outsAt1 V c (n + 1) h = outsAt1 V c (⟨n + 1, h⟩ : Fin cfg1.N).val (⟨n + 1, h⟩ : Fin cfg1.N).isLt from rfl, hA]
      refine (step_eq V c ⟨n + 1, h⟩ _ p q).trans ?_
      rw [pay1_apply, zero_add, resetAcc_of_dvd 8 _ _ h0]
      unfold closing
      rw [if_neg h1, add_zero]
    · have hprev : ¬n % 8 = 7 := by omega
      have ih' : outsAt1 V c n (Nat.lt_of_succ_lt h) (ix2 (n0 := 2048) (n1 := 2048) p q) = resetAcc 8 (term V c p.val q.val) n := by
        rw [ih]; unfold closing; rw [if_neg hprev, add_zero]
      by_cases h1 : (n + 1) % 8 = 7
      · have hC := outsAt1_C V c ⟨n + 1, h⟩ h0 h1
        rw [out_C] at hC
        rw [show outsAt1 V c (n + 1) h = outsAt1 V c (⟨n + 1, h⟩ : Fin cfg1.N).val (⟨n + 1, h⟩ : Fin cfg1.N).isLt from rfl, hC]
        refine (pay3_apply _ _ p q).trans ?_
        refine congrArg₂ (· + ·) ((step_eq V c ⟨n + 1, h⟩ _ p q).trans ?_) ((iblk_b V c ⟨n + 1, h⟩ q).trans ?_)
        · rw [resetAcc_succ 8 _ _ h0]
          exact congrArg (· + _) ih'
        · unfold closing; rw [if_pos h1]
      · have hB := outsAt1_B V c ⟨n + 1, h⟩ h0 h1
        rw [out_B] at hB
        rw [show outsAt1 V c (n + 1) h = outsAt1 V c (⟨n + 1, h⟩ : Fin cfg1.N).val (⟨n + 1, h⟩ : Fin cfg1.N).isLt from rfl, hB]
        refine (step_eq V c ⟨n + 1, h⟩ _ p q).trans ?_
        rw [resetAcc_succ 8 _ _ h0]
        unfold closing
        rw [if_neg h1, add_zero]
        exact congrArg (· + _) ih'

end Cert.KernelIdeal.Region1

end
-- ==== Proof.R1Value.lean ====
/-
  The result array after the matrix-product region, as one function of the three arrays the region reads.

  The output block of row tile I and column tile J is written back once, after the last of its eight contraction
  steps. By then its buffer holds, at entry (p, q), the eight steps' 512-term products added up plus the bias entry:
      sum over s < 8 of (sum over k < 512 of x[2048 I + p, 512 s + k] * w[2048 J + q, 512 s + k])  +  b[2048 J + q].
  Eight consecutive tiles of 512 make the whole contraction range, so this is
      (sum over u < 4096 of x[r, u] * w[o, u]) + b[o]        at r = 2048 I + p, o = 2048 J + q,
  the entry (r, o) of ONE whole-array function. The 4 x 2 written-back blocks tile the 8192 x 4096 result, so the
  array ends holding that function. Only the regrouping of a finite sum is used: no finiteness of the entries.
-/
import proofs.«135417_j20151986553504_2_alg».proof.Proof.R1Acc

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.ResetSum

variable (V : (c : Dev nD) → (b : Ref sig .tc) → Buf (Elt Ideal) ((c : Thread nD τ).loc b))

/-- The layer's output from the arrays the region reads: row `i 0` of the batch against row `i 1` of the weight, plus
    entry `i 1` of the bias row. -/
def result (c : Dev nD) (i : S8192x4096.Idx) : EReal :=
  (∑ u ∈ Finset.range 4096, xAt V c (i 0).val u * wAt V c (i 1).val u) + bAt V c (i 1).val

/-- The contributions of the eight steps of one output block, added up, are the whole contraction. -/
theorem terms_eq_contraction (c : Dev nD) (p q n : ℕ) :
    ∑ s ∈ Finset.range 8, term V c p q (n / 8 * 8 + s)
      = ∑ u ∈ Finset.range 4096, xAt V c (n / 16 * 2048 + p) u * wAt V c (n / 8 % 2 * 2048 + q) u := by
  have key : ∀ s ∈ Finset.range 8, term V c p q (n / 8 * 8 + s)
      = ∑ k ∈ Finset.range 512, xAt V c (n / 16 * 2048 + p) (s * 512 + k) * wAt V c (n / 8 % 2 * 2048 + q) (s * 512 + k) := by
    intro s hs
    have hs8 : s < 8 := Finset.mem_range.mp hs
    unfold term
    rw [show (n / 8 * 8 + s) / 16 = n / 16 by omega, show (n / 8 * 8 + s) % 8 = s by omega,
      show (n / 8 * 8 + s) / 8 % 2 = n / 8 % 2 by omega]
  rw [Finset.sum_congr rfl key]
  exact (sum_range_mul 8 512 fun u => xAt V c (n / 16 * 2048 + p) u * wAt V c (n / 8 % 2 * 2048 + q) u).symm

/-- What a last contraction step writes back is its block of `result`. -/
theorem written_block_eq (c : Dev nD) (t : Fin cfg1.N) (hf : (cfg1.win 3).flush t = true) :
    (dat1 (F := Ideal) V c).flushed 3 t = ((cfg1.win 3).blk t).view.read (Elt Ideal) (result V c) := by
  have h7 : t.val % 8 = 7 := (flush1_3 t).mp hf
  have hN : t.val < 64 := lt_of_lt_of_eq t.isLt (show cfg1.N = 64 from N_1)
  obtain ⟨-, -, -, -, -, -, e0, e1⟩ := index_facts t
  show (cfg1.win 3).cut (grid1.coords t) ((dat1 V c).after 3 t) = _
  rw [after1_3]
  funext j
  obtain ⟨p, q, rfl⟩ : ∃ (p : Fin 2048) (q : Fin 2048), j = ix2 (n0 := 2048) (n1 := 2048) p q := ⟨j 0, j 1, eq_ix2 j⟩
  show outsAt1 V c t.val t.isLt (ix2 (n0 := 2048) (n1 := 2048) p q)
    = result V c (((cfg1.win 3).blk t).view.emb (ix2 (n0 := 2048) (n1 := 2048) p q))
  have r0 : ((((cfg1.win 3).blk t).view.emb (ix2 (n0 := 2048) (n1 := 2048) p q)) 0).val = t.val / 16 * 2048 + p.val := by
    show win1_3.index t (0 : Fin 2) * 2048 + 1 * p.val = _; rw [e0]; omega
  have r1 : ((((cfg1.win 3).blk t).view.emb (ix2 (n0 := 2048) (n1 := 2048) p q)) 1).val = t.val / 8 % 2 * 2048 + q.val := by
    show win1_3.index t (1 : Fin 2) * 2048 + 1 * q.val = _; rw [e1]; omega
  unfold result
  rw [r0, r1, outsAt_eq, ← terms_eq_contraction]
  have hlast := resetAcc_period 8 (term V c p.val q.val) (t.val / 8) 7 (by decide)
  rw [show t.val / 8 * 8 + 7 = t.val by omega] at hlast
  rw [hlast]
  unfold closing
  rw [if_pos h7]

/-- An index of the result array is in point `t`'s block iff each coordinate is in the block's range on its axis. -/
theorem mem_written_block (t : Fin cfg1.N) (i : S8192x4096.Idx) :
    i ∈ ((cfg1.win 3).blk t).view.set ↔ ∀ a : Fin 2, win1_3.index t a * S2048x2048.size a ≤ (i a).val ∧ (i a).val < win1_3.index t a * S2048x2048.size a + S2048x2048.size a := by
  show i ∈ ((View.whole main_v8).slice (win1_3.rect t)).set ↔ _
  rw [View.set_slice_whole, Rect.mem_set_unit]
  exact Iff.rfl

/-- The written-back blocks cover the result: index `i` lies in the block written at the last step of row tile
    `i 0 / 2048` and column tile `i 1 / 2048`. -/
theorem written_blocks_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 64 := N_1
  let t : Fin cfg1.N := ⟨16 * ((i 0).val / 2048) + 8 * ((i 1).val / 2048) + 7, by rw [hN]; omega⟩
  have tv : t.val = 16 * ((i 0).val / 2048) + 8 * ((i 1).val / 2048) + 7 := rfl
  obtain ⟨-, -, -, -, -, -, e0, e1⟩ := index_facts t
  refine ⟨t, (flush1_3 t).mpr (by rw [tv]; omega), ?_⟩
  rw [mem_written_block]
  intro a
  match a with
  | ⟨0, _⟩ => show win1_3.index t (0 : Fin 2) * 2048 ≤ (i 0).val ∧ (i 0).val < win1_3.index t (0 : Fin 2) * 2048 + 2048; rw [e0, tv]; omega
  | ⟨1, _⟩ => show win1_3.index t (1 : Fin 2) * 2048 ≤ (i 1).val ∧ (i 1).val < win1_3.index t (1 : Fin 2) * 2048 + 2048; rw [e1, tv]; omega

/-- After the region the result array holds `result` of the arrays the region found. -/
theorem final (c : Dev nD) : (dat1 (F := Ideal) V c).arrAt 3 cfg1.N = result V c :=
  (dat1 V c).arrAt_eq_of_cover 3 (result V c) (written_block_eq V c) written_blocks_cover

end Cert.KernelIdeal.Region1

end
-- ==== Proof.Presample.lean ====
/-
  The first kernel region as one function of its three input arrays. The region walks a 4 x 4 grid of
  1024 x 1024 blocks over the mean, the log-variance and the noise, and at every point writes back the block
  `mean + noise * exp (half * logvar)` of the same rectangle of the output (the narrowing to the 16-bit format is
  the identity on the extended reals). The sixteen blocks tile the 4096 x 4096 output, so after the region the
  output array holds the sampled weight of the three arrays, entry by entry.
-/
import proofs.«135417_j20151986553504_2_alg».proof.Proof.Gen.KernelIdeal.Frame
import proofs.«135417_j20151986553504_2_alg».proof.Proof.Spec
import Idealize.ShloMosaic.Lib.Pipeline.Value
import Idealize.ShloMosaic.Lib.ValueIdx

set_option maxRecDepth 16384

noncomputable section

namespace Cert.KernelIdeal.Presample

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's loads and its store start at the block's origin. -/
theorem origin_eq_zero : (![0, 0] : Fin 2 → Nat) = fun _ => 0 := funext fun a => by fin_cases a <;> rfl

/-- The index maps, decided over the sixteen grid points: each input window's block index is the output window's on
    both axes, and the output's block indices are at most 3. -/
theorem block_index_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block of the 4 x 4 tiling of the output is some grid point's. -/
theorem block_index_onto : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-- What grid point `t` writes back is block `t` of the sampled weight of the three input arrays: the body computes
    `mean + noise * exp (half * logvar)` entry by entry, and each input block sits on the output block's rectangle. -/
theorem written_block_eq (c : Dev nD) (t : Fin cfg0.N) :
    (dat0 (F := Ideal) V c).flushed 3 t = ((cfg0.win 3).blk t).view.read (Elt Ideal) (Cert.Spec.weight (V c main_arg1) (V c main_arg2) (V c main_arg5)) := by
  show (cfg0.win 3).cut (grid0.coords t) ((dat0 V c).after 3 t) = _
  rw [after0_3]
  unfold out0_3
  rw [View.canon_unit_zero origin_eq_zero]
  simp only [View.ld_unit_zero (S := S1024x1024) origin_eq_zero]
  obtain ⟨e0, e1, e2, e3, e4, e5, e6, e7⟩ := block_index_facts t
  funext j
  show Cert.Spec.sample (V c main_arg1 (((cfg0.win 0).blk t).view.emb j)) (V c main_arg2 (((cfg0.win 1).blk t).view.emb j)) (V c main_arg5 (((cfg0.win 2).blk t).view.emb j)) = Cert.Spec.sample (V c main_arg1 (((cfg0.win 3).blk t).view.emb j)) (V c main_arg2 (((cfg0.win 3).blk t).view.emb j)) (V c main_arg5 (((cfg0.win 3).blk t).view.emb j))
  have mean_at : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * (j 1).val = win0_3.index t (1 : Fin 2) * 1024 + 1 * (j 1).val; omega
  have logvar_at : ((cfg0.win 1).blk t).view.emb j = ((cfg0.win 3).blk t).view.emb j := by
    funext a; apply Fin.ext
    match a with
    | ⟨0, _⟩ => show win0_1.index t (0 : Fin 2) * 1024 + 1 * (j 0).val = win0_3.index t (0 : Fin 2) * 1024 + 1 * (j 0).val; omega
    | ⟨1, _⟩ => show win0_1.index t (1 : Fin 2) * 1024 + 1 * (j 1).val = win0_3.index t (1 : Fin 2) * 1024 + 1 * (j 1).val; omega
  have noise_at : ((cfg0.win 2).blk t).view.emb j = ((cfg0.win 3).blk t).view.emb j := by
    funext a; apply Fin.ext
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 1024 + 1 * (j 1).val = win0_3.index t (1 : Fin 2) * 1024 + 1 * (j 1).val; omega
  rw [mean_at, logvar_at, noise_at]

/-- An index of the output array is in point `t`'s block iff each coordinate is in the block's range on its axis. -/
theorem mem_written_block (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- The sixteen written blocks cover the output: index `i` lies in the block `(i 0 / 1024, i 1 / 1024)`. -/
theorem written_blocks_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := block_index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_written_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the region the output array holds the sampled weight of the three input arrays as the region found them. -/
theorem final (c : Dev nD) :
    (dat0 (F := Ideal) V c).arrAt 3 cfg0.N = Cert.Spec.weight (V c main_arg1) (V c main_arg2) (V c main_arg5) :=
  (dat0 V c).arrAt_eq_of_cover 3 _ (fun t _ => written_block_eq V c t) written_blocks_cover

end Cert.KernelIdeal.Presample

end
-- ==== Proof.Entry.lean ====
/-
  What the three arrays the matrix-product region reads hold when that region is entered, as functions of the program's
  argument arrays at launch. Before it the program runs: a change of float format of the batch; the elementwise
  sampling region, which writes the sampled weight; and seven host operations that build the sampled bias
  `mu + eps * exp (half * lv)` over the 4096 output features and re-lay it as one row. No host operation and no
  region writes an argument array, so each argument is read back as launched.
    the batch copy    = the batch, entry by entry (a change of format is the identity on the extended reals);
    the weight array  = the sampled weight of (mean, log-variance, noise) = arguments 1, 2, 5;
    the bias row      = the sampled bias of arguments 3, 4, 6, its entry `o` at position `(0, o)`.
-/
import proofs.«135417_j20151986553504_2_alg».proof.Proof.Gen.KernelIdeal.Frame
import proofs.«135417_j20151986553504_2_alg».proof.Proof.Presample
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Entry

open Cert.KernelIdeal Cert.KernelIdeal.Gen Idealize.ShloMosaic.ValueIdx

variable (m : (ℓ : Loc nD τ sig) → Buf (Elt Ideal) ℓ) (ρ : Dev nD → PrngReg)

/-! ## The arguments, read where the sampling region and the bias stretch find them -/

/-- The format change before the first region writes the batch copy only: the weight family's three arrays are as launched
    when the sampling region is entered. -/
theorem V1_arg1 (c : Dev nD) : V1 m ρ c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))
theorem V1_arg2 (c : Dev nD) : V1 m ρ c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))
theorem V1_arg5 (c : Dev nD) : V1 m ρ c main_arg5 = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))

/-- The bias family's three arrays are no window of the sampling region and are not written before it: as launched when
    the bias stretch runs. -/
theorem W2_arg3 (c : Dev nD) : W2 m ρ c (Proc.devRef .tc main_arg3) = m ((c : Thread nD τ).loc main_arg3) :=
  (W2_of_ne m ρ c main_arg3 (by decide)).trans
    (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))))
theorem W2_arg4 (c : Dev nD) : W2 m ρ c (Proc.devRef .tc main_arg4) = m ((c : Thread nD τ).loc main_arg4) :=
  (W2_of_ne m ρ c main_arg4 (by decide)).trans
    (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))))
theorem W2_arg6 (c : Dev nD) : W2 m ρ c (Proc.devRef .tc main_arg6) = m ((c : Thread nD τ).loc main_arg6) :=
  (W2_of_ne m ρ c main_arg6 (by decide)).trans
    (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))))

/-! ## The three arrays at the matrix-product region's entry -/

/-- The batch copy: the batch through the change of format. Neither the sampling region nor the bias stretch writes it. -/
theorem V3_v0 (c : Dev nD) :
    V3 m ρ c main_v0 = (truncf .bf16 (m ((c : Thread nD τ).loc main_arg0)) bitsLt_bf16_f32 : FVec Ideal S8192x4096 .bf16) :=
  calc W3 m ρ c (Proc.devRef .tc main_v0)
    _ = W2 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))
    _ = W1 m ρ c (Proc.devRef .tc main_v0) := W2_of_ne m ρ c main_v0 (by decide)
    _ = _ := by
      show StableHlo.after hostOps0 (W0 m ρ c) (Proc.devRef .tc main_v0) = _
      after_results

/-- The weight array: what the sampling region left, the sampled weight of its three arguments. -/
theorem V3_v1 (c : Dev nD) :
    V3 m ρ c main_v1 = Cert.Spec.weight (m ((c : Thread nD τ).loc main_arg1)) (m ((c : Thread nD τ).loc main_arg2)) (m ((c : Thread nD τ).loc main_arg5)) :=
  calc W3 m ρ c (Proc.devRef .tc main_v1)
    _ = W2 m ρ c (Proc.devRef .tc main_v1) := StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide)))
    _ = (dat0 (V1 m ρ) c).arrAt 3 cfg0.N := W2_arr m ρ c 3
    _ = Cert.Spec.weight (V1 m ρ c main_arg1) (V1 m ρ c main_arg2) (V1 m ρ c main_arg5) := Cert.KernelIdeal.Presample.final (V1 m ρ) c
    _ = _ := by rw [V1_arg1, V1_arg2, V1_arg5]

/-- The bias row: the seven host operations' term of the bias family's three arguments. -/
theorem V3_v7 (c : Dev nD) :
    V3 m ρ c main_v7 = shapeCast S1x4096 (addf (m ((c : Thread nD τ).loc main_arg3)) (mulf (m ((c : Thread nD τ).loc main_arg6))
      (Host.exp (mulf (broadcastInDim S4096 ![] bcast_S_S4096 (constant (F := Ideal) S_ .f32 0x3F000000#32)) (m ((c : Thread nD τ).loc main_arg4))))))
      shapeCasts_S4096_S1x4096 := by
  rw [← W2_arg3 m ρ c, ← W2_arg4 m ρ c, ← W2_arg6 m ρ c]
  show StableHlo.after hostOps1 (W2 m ρ c) (Proc.devRef .tc main_v7) = _
  after_results
  rfl

/-! ## Read at an index -/

/-- The batch copy at `(r, u)` is the batch there. -/
theorem V3_v0_apply (c : Dev nD) (j : S8192x4096.Idx) : V3 m ρ c main_v0 j = m ((c : Thread nD τ).loc main_arg0) j := by
  rw [V3_v0]; rfl

/-- The weight array at an index is the sampled weight there. -/
theorem V3_v1_apply (c : Dev nD) (j : S4096x4096.Idx) :
    V3 m ρ c main_v1 j = Cert.Spec.weight (m ((c : Thread nD τ).loc main_arg1)) (m ((c : Thread nD τ).loc main_arg2)) (m ((c : Thread nD τ).loc main_arg5)) j := by
  rw [V3_v1]

/-- The bias row at `(0, o)` is the sampled bias at `o`. -/
theorem V3_v7_apply (c : Dev nD) (o : Fin 4096) :
    V3 m ρ c main_v7 (ix2 (n0 := 1) (n1 := 4096) (0 : Fin 1) o)
      = Cert.Spec.bias (m ((c : Thread nD τ).loc main_arg3)) (m ((c : Thread nD τ).loc main_arg4)) (m ((c : Thread nD τ).loc main_arg6)) (ix1 (n := 4096) o) := by
  rw [V3_v7]
  refine (shapeCast_a_1a_apply _ shapeCasts_S4096_S1x4096 (0 : Fin 1) o).trans ?_
  rfl

end Cert.KernelIdeal.Entry

end
-- ==== Proof.KernelRun.lean ====
/-
  The whole idealized kernel program, run, with its result array named: every weakly fair execution terminates with
  the result holding the layer formula of the argument arrays at launch, and the arguments unchanged.

  The program is four segments: the batch's format change, the sampling region, the bias stretch, the matrix-product
  region. The run carries every unscoped buffer's contents from one segment boundary to the next; at the end the result
  buffer holds what the last region's write-backs left (one whole-array function of the three arrays that region
  reads), and those three arrays are, entry by entry, the batch, the sampled weight and the sampled bias of the
  arguments. Re-indexing the contraction from a range of naturals to the finite index type gives the specification.
-/
import proofs.«135417_j20151986553504_2_alg».proof.Proof.Gen.KernelIdeal.Frame
import proofs.«135417_j20151986553504_2_alg».proof.Proof.R1Value
import proofs.«135417_j20151986553504_2_alg».proof.Proof.Entry
import proofs.«135417_j20151986553504_2_alg».proof.Proof.Spec

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The run, with the result buffer kept -/

set_option backward.isDefEq.respectTransparency.types false in
/-- Every weakly fair execution terminates, nothing faulting, with the result buffer at the last segment boundary's
    contents and every argument as launched: the segments' chain, read against the final state. -/
theorem run_boundary : θ_run defs (onTc (τ := τ) (main (F := Ideal))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-! ## The result buffer's last contents are the specification -/

/-- The layer formula over the three arrays the matrix-product region reads is the specification over the arguments:
    each array read back entry by entry, and the contraction re-indexed from the naturals below 4096 to `Fin 4096`. -/
theorem result_eq_spec (c : Dev nD) :
    Cert.KernelIdeal.Region1.result (V3 m ρ) c
      = Cert.Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  funext i
  have hi0 : (i 0).val < 8192 := (i 0).isLt
  have hi1 : (i 1).val < 4096 := (i 1).isLt
  unfold Cert.KernelIdeal.Region1.result Cert.Spec.out
  refine congrArg₂ (· + ·) ?_ ?_
  · rw [Finset.sum_range]
    refine Finset.sum_congr rfl fun u _ => ?_
    unfold Cert.KernelIdeal.Region1.xAt Cert.KernelIdeal.Region1.wAt
    rw [dif_pos ⟨hi0, u.isLt⟩, dif_pos ⟨hi1, u.isLt⟩, Cert.KernelIdeal.Entry.V3_v0_apply, Cert.KernelIdeal.Entry.V3_v1_apply]
    rfl
  · unfold Cert.KernelIdeal.Region1.bAt
    rw [dif_pos hi1]
    exact Cert.KernelIdeal.Entry.V3_v7_apply m ρ c ⟨(i 1).val, hi1⟩

/-- The last boundary's contents of the result buffer: what the matrix-product region's write-backs left. -/
theorem W4_v8 (c : Dev nD) :
    W4 m ρ c (Proc.devRef .tc main_v8)
      = Cert.Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  ((W4_arr m ρ c 3).trans (Cert.KernelIdeal.Region1.final (V3 m ρ) c)).trans (result_eq_spec m ρ c)

/-- The kernel program's run: the result at the specification of the arguments, the arguments unchanged. -/
theorem run : θ_run defs (onTc (τ := τ) (main (F := Ideal))) ⟨m, fun _ => 0, ρ⟩ (fun r => ∀ c : Dev nD,
      r.2.mem ((c.tc : Thread nD τ).loc main_v8)
        = Cert.Spec.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_v8 m ρ c), (h c).2⟩) (run_boundary m ρ)

end Cert.KernelIdeal.Whole

end
-- ==== Proof.lean ====
/-
  A linear layer with reparameterized weight and bias, `out = x · Wᵀ + b` with `W = mu + eps * exp (lv / 2)` and `b`
  likewise, computed two ways that are one function on the extended reals.

  The kernel program samples the weight once in an elementwise region, builds the bias on the host, and forms the
  product in a second region whose contraction is cut into eight steps of 512: an output block is cleared at its first
  step, grows by one 512-term product per step, and takes the bias at its last step. The reference samples weight and
  bias on the host, contracts all 4096 terms at once and adds the bias. The two differ only by how one finite sum is
  grouped (and by changes of float format, which are the identity here), so the results agree entry by entry; the
  inputs' finiteness is not needed.

  The pieces: `Spec` (the formula), `RefIsSpec` (the reference is the formula), `Presample` (the sampling region),
  `R1Cases` / `R1Payload` / `R1Blocks` / `R1Acc` / `R1Value` (the matrix-product region: its three behaviours, its
  stored values at an entry, where its blocks sit, the running total, the final array), `Entry` (what the second
  region's inputs hold) and `KernelRun` (the kernel program's run with its result named). The idealization rewrote
  nothing, so the kernel program read at the ideal values is its own idealization.
-/
import proofs.«135417_j20151986553504_2_alg».proof.Defs
import proofs.«135417_j20151986553504_2_alg».proof.Proof.Gen.Kernel
import proofs.«135417_j20151986553504_2_alg».proof.Proof.Gen.Kernel.Skeleton
import proofs.«135417_j20151986553504_2_alg».proof.Proof.Gen.Kernel.Launch
import proofs.«135417_j20151986553504_2_alg».proof.Proof.Gen.Kernel.Points
import proofs.«135417_j20151986553504_2_alg».proof.Proof.Gen.Kernel.Frame
import proofs.«135417_j20151986553504_2_alg».proof.Proof.Gen.KernelIdeal
import proofs.«135417_j20151986553504_2_alg».proof.Proof.Gen.KernelIdeal.Skeleton
import proofs.«135417_j20151986553504_2_alg».proof.Proof.Gen.KernelIdeal.Launch
import proofs.«135417_j20151986553504_2_alg».proof.Proof.Gen.KernelIdeal.Points
import proofs.«135417_j20151986553504_2_alg».proof.Proof.Gen.KernelIdeal.Frame
import proofs.«135417_j20151986553504_2_alg».proof.Proof.Gen.ReferenceIdeal
import proofs.«135417_j20151986553504_2_alg».proof.Proof.Gen.Pre_finite_inputs
import proofs.«135417_j20151986553504_2_alg».proof.Proof.Gen.ReferenceIdeal.Run
import proofs.«135417_j20151986553504_2_alg».proof.Proof.Gen.ReferenceIdeal.Read
import proofs.«135417_j20151986553504_2_alg».proof.Proof.RefIsSpec
import proofs.«135417_j20151986553504_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the same program read at the ideal values. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: nothing to restate. -/
theorem preserves : Cert.preserves_Kernel_KernelIdeal := trivial

/-- From memories agreeing on the arguments both programs end with the layer formula of those arguments in their
    result arrays: the kernel program by its run, the reference by its run read back as the formula. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v13_eq _ _ _ _ _ _ _).trans (Cert.ReferenceIdeal.RefValue.ref_eq_spec _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
